-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x1024 : Shape := ⟨2, ![1024, 1024]⟩
abbrev S32x1024x1024 : Shape := ⟨3, ![32, 1024, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn_part1 {F : FTy → Type} [FloatOps F] (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  main_v18

def fn {F : FTy → Type} [FloatOps F] (main_arg0 : FVec F S32x1024 .f32) (main_arg1 : FVec F S1024x1024 .f32) (main_arg2 : FVec F S32x1024 .f32) (main_arg3 : FVec F S32x1024x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x1024 .f32 := Host.absf main_arg3
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_v13 main_v16
-- ==== Kernel.lean ====
abbrev S32x1024 : Shape := ⟨2, ![32, 1024]⟩
abbrev S1024x1024 : Shape := ⟨2, ![1024, 1024]⟩
abbrev S32x1024x1024 : Shape := ⟨3, ![32, 1024, 1024]⟩
abbrev S1024x256 : Shape := ⟨2, ![1024, 256]⟩
abbrev S32x256 : Shape := ⟨2, ![32, 256]⟩
abbrev S32x1024x1 : Shape := ⟨3, ![32, 1024, 1]⟩
abbrev S32x128x1 : Shape := ⟨3, ![32, 128, 1]⟩
abbrev S32x128x256 : Shape := ⟨3, ![32, 128, 256]⟩

abbrev nBuf : Space → Nat
  | .hbm => 8
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024, .f32⟩
  | .hbm, ⟨6, _⟩ => ⟨S32x1024x1, .f32⟩
  | .hbm, ⟨7, _⟩ => ⟨S32x1024x1024, .f32⟩
  | .local _ .vmem, ⟨0, _⟩ => ⟨S32x1024, .f32⟩
  | .local _ .vmem, ⟨1, _⟩ => ⟨S1024x256, .f32⟩
  | .local _ .vmem, ⟨2, _⟩ => ⟨S1024x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x128x1, .f32⟩
  | .local _ .vmem, ⟨10, _⟩ => ⟨S32x128x1, .f32⟩
  | .local _ .vmem, ⟨11, _⟩ => ⟨S32x128x256, .f32⟩
  | .local _ .vmem, ⟨12, _⟩ => ⟨S32x128x256, .f32⟩
  | .local _ .vmem, ⟨13, _⟩ => ⟨S32x128x256, .f32⟩
  | .local _ .vmem, ⟨14, _⟩ => ⟨S32x128x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S32x128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S32x256_S32x256_0_0 : ∀ a, (![0, 0] : Fin 2 → Nat) a + S32x256.size a ≤ S32x256.size a
  h_S32x256 : 0 < S32x256.numel
  bcast_S32x1024_S32x1024x1_0_1 : S32x1024.BroadcastsInDim S32x1024x1 (![0, 1] : Fin 2 → Fin S32x1024x1.rank)
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  broadcasts_S32x128x1_S32x128x256 : S32x128x1.Broadcasts S32x128x256
  inb_S32x128x256_S32x128x256_0_0_0 : ∀ a, (![0, 0, 0] : Fin 3 → Nat) a + S32x128x256.size a ≤ S32x128x256.size a
  h_S32x128x256 : 0 < S32x128x256.numel
  dot_S32x1024_S1024x256_S32x256_1_0_0_1_n_n_wf : DotDims.WF S32x1024 S1024x256 S32x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x1024.size a
  hwx0_1 : ∀ i : grid0.Coords, EltTy.bits .f32 = 32 ∨ (Rect.block (s := S1024x1024) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x1024.size a
  hwx0_2 : ∀ i : grid0.Coords, EltTy.bits .f32 = 32 ∨ (Rect.block (s := S32x1024) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x1024.size a
  hwx0_3 : ∀ i : grid0.Coords, EltTy.bits .f32 = 32 ∨ (Rect.block (s := S32x1024) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x1024.size a
  hwx0_4 : ∀ i : grid0.Coords, EltTy.bits .f32 = 32 ∨ (Rect.block (s := S32x1024) S32x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x1.size a ≤ S32x1024x1.size a
  hwx1_0 : ∀ i : grid1.Coords, EltTy.bits .f32 = 32 ∨ (Rect.block (s := S32x1024x1) S32x128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x256.size a ≤ S32x1024x1024.size a
  hwx1_1 : ∀ i : grid1.Coords, EltTy.bits .f32 = 32 ∨ (Rect.block (s := S32x1024x1024) S32x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x256.size a ≤ S32x1024x1024.size a
  hwx1_2 : ∀ i : grid1.Coords, EltTy.bits .f32 = 32 ∨ (Rect.block (s := S32x1024x1024) S32x128x256.size (cc1_transform_2 i) (hinb1_2 i)).WholeWords (EltTy.packing .f32)

variable [Facts₀]

def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S32x128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 1 2

variable [Facts]
-- ==== ReferenceIdeal.lean ====
abbrev S32x1024 : Shape := ⟨2, ![32, 1024]⟩
abbrev S1024x1024 : Shape := ⟨2, ![1024, 1024]⟩
abbrev S32x1024x1024 : Shape := ⟨3, ![32, 1024, 1024]⟩
abbrev S_ : Shape := ⟨0, ![]⟩
abbrev S32x1024x1 : Shape := ⟨3, ![32, 1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S32x1024x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1, .f32⟩
  | .hbm, ⟨14, _⟩ => ⟨S32x1024x1024, .f32⟩
  | .hbm, ⟨15, _⟩ => ⟨S32x1024x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S_S32x1024x1024 : S_.BroadcastsInDim S32x1024x1024 (![] : Fin 0 → Fin S32x1024x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Recurrence.lean ====
/-
  The three results of one step of the recurrent cell as functions of its four argument arrays, index by index, on
  the extended reals. Write β for the single-precision word 0x3F666666 (the float nearest 0.9) read at its exact
  value. For a batch row b, an input feature i or k and a hidden unit j:
    • the new state   u'[b, j]    = β · u[b, j] + Σ_k x[b, k] · W[k, j]      (k over the 1024 input features),
    • the output      s[b, j]     = tanh u'[b, j],
    • the new trace   E'[b, i, j] = β · E[b, i, j] + x[b, i].
  Nothing here mentions a program: both programs are shown to compute these.
-/
import Idealize.ShloMosaic.PureOps.Ideal
import Idealize.ShloMosaic.Lib.ValueIdx

noncomputable section

namespace Cert.Recurrence

open Idealize.ShloMosaic Idealize.ShloMosaic.ValueIdx

/-- The decay factor: the one word both programs carry, at its exact value. -/
abbrev β : EReal := Ideal.ofBits .f32 0x3F666666#32

/-- The new state: the old one decayed, plus the input row times the weight column. -/
def state (x : (⟨2, ![32, 1024]⟩ : Shape).Idx → EReal) (W : (⟨2, ![1024, 1024]⟩ : Shape).Idx → EReal)
    (u : (⟨2, ![32, 1024]⟩ : Shape).Idx → EReal) : (⟨2, ![32, 1024]⟩ : Shape).Idx → EReal :=
  fun i => β * u i + ∑ k : Fin 1024, x (ix2 (i 0) k) * W (ix2 k (i 1))

/-- The output: the hyperbolic tangent of the new state. -/
def output (x : (⟨2, ![32, 1024]⟩ : Shape).Idx → EReal) (W : (⟨2, ![1024, 1024]⟩ : Shape).Idx → EReal)
    (u : (⟨2, ![32, 1024]⟩ : Shape).Idx → EReal) : (⟨2, ![32, 1024]⟩ : Shape).Idx → EReal :=
  fun i => Ideal.tanh (state x W u i)

/-- The new trace: the old one decayed, plus the input entry of its batch row and input feature, whatever the hidden unit. -/
def trace (x : (⟨2, ![32, 1024]⟩ : Shape).Idx → EReal) (E : (⟨3, ![32, 1024, 1024]⟩ : Shape).Idx → EReal) :
    (⟨3, ![32, 1024, 1024]⟩ : Shape).Idx → EReal :=
  fun i => β * E i + x (ix2 (i 0) (i 1))

end Cert.Recurrence

end
-- ==== Proof.ReferenceReads.lean ====
/-
  The reference computes the recurrence. Its three results, read one operation at a time at an index, are the new
  state, the output and the new trace of Recurrence.lean: the product of x and W is the sum over the contracted
  feature k of x[b, k] · W[k, j]; the scalar β spread over an array reads β everywhere; and x spread first to
  [32, 1024, 1] and then along the hidden axis reads, at (b, i, j), the entry x[b, i].
-/
import proofs.«132339_j61151744360733_2_alg».proof.Proof.Gen.ReferenceIdeal.Read
import proofs.«132339_j61151744360733_2_alg».proof.Proof.Recurrence

noncomputable section

namespace Cert.ReferenceIdeal.Reads

open Cert.ReferenceIdeal Cert.ReferenceIdeal.Read Idealize.ShloMosaic Idealize.ShloMosaic.ValueIdx Cert.Recurrence

/-- The left operand of the product is read at (b, k). -/
theorem left_at (i : S32x1024.Idx) (k : Fin 1024) : lidx_main_v2 i k = ix2 (i 0) k :=
  funext fun a => Fin.ext (by match a with | ⟨0, _⟩ => rfl | ⟨1, _⟩ => rfl)

/-- The right operand of the product is read at (k, j). -/
theorem right_at (i : S32x1024.Idx) (k : Fin 1024) : ridx_main_v2 i k = ix2 k (i 1) :=
  funext fun a => Fin.ext (by match a with | ⟨0, _⟩ => rfl | ⟨1, _⟩ => rfl)

/-- x spread to [32, 1024, 1] and then along the hidden axis is read, at (b, i, j), at (b, i). -/
theorem spread_at (i : S32x1024x1024.Idx) : idx_main_v7 (idx_main_v8 i) = ix2 (i 0) (i 1) :=
  funext fun a => Fin.ext (by match a with | ⟨0, _⟩ => rfl | ⟨1, _⟩ => rfl)

/-- The reference's second result is the new state. -/
theorem state_eq (x : (⟨S32x1024, .f32⟩ : BufTy).Contents (Elt Ideal)) (W : (⟨S1024x1024, .f32⟩ : BufTy).Contents (Elt Ideal))
    (u : (⟨S32x1024, .f32⟩ : BufTy).Contents (Elt Ideal)) : val_main_v3 (F := Ideal) x W u = state x W u := by
  funext i
  rw [val_main_v3_apply, val_main_v1_apply, val_main_v0_apply, val_main_cst_apply, val_main_v2_apply]
  simp only [left_at, right_at]
  rfl

/-- The reference's first result is the output. -/
theorem output_eq (x : (⟨S32x1024, .f32⟩ : BufTy).Contents (Elt Ideal)) (W : (⟨S1024x1024, .f32⟩ : BufTy).Contents (Elt Ideal))
    (u : (⟨S32x1024, .f32⟩ : BufTy).Contents (Elt Ideal)) : val_main_v4 (F := Ideal) x W u = output x W u := by
  funext i
  rw [val_main_v4_apply, state_eq]
  rfl

/-- The reference's third result is the new trace. -/
theorem trace_eq (x : (⟨S32x1024, .f32⟩ : BufTy).Contents (Elt Ideal)) (E : (⟨S32x1024x1024, .f32⟩ : BufTy).Contents (Elt Ideal)) :
    val_main_v9 (F := Ideal) x E = trace x E := by
  funext i
  rw [val_main_v9_apply, val_main_v6_apply, val_main_v5_apply, val_main_cst_0_apply, val_main_v8_apply, val_main_v7_apply, spread_at]
  rfl

end Cert.ReferenceIdeal.Reads

end
-- ==== Proof.WholeRun.lean ====
/-
  The idealized kernel's run with nothing forgotten. @main is two kernel regions with two host operations between
  them; the buffer contents at the three boundaries are a fold from the launch memory (W0, W1, W2, W3). Every weakly
  fair execution terminates, nothing faulting, and in every final state EVERY buffer that outlives the regions holds
  the last boundary's contents W3 — the arguments and the three results alike. The frame claim keeps of this only
  the arguments; the value claim reads the results from it.
-/
import proofs.«132339_j61151744360733_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each buffer that outlives the
    regions at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Whole

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.StateBlocks.lean ====
/-
  The first kernel region computes the new state and the output, a block of 256 hidden units at a time.

  Its grid has four points. At point t the body reads all of x, the 256 columns [256 t, 256 t + 256) of W and of u,
  forms β · u + x · W on that block — the product accumulated into zero is, entry by entry, the sum over the
  contracted feature k of x[b, k] · W[k, j]; rounding the operands to a narrower format on the way in changes
  nothing on the extended reals — and writes it back to the same columns of one result, and its hyperbolic tangent
  to the same columns of the other. So what point t writes back is block t of the whole-array functions of
  Recurrence.lean; the four blocks tile the 1024 columns, and therefore after the region each result array holds
  that function of the arrays the region was entered with. Stated at ANY entry contents V.
-/
import proofs.«132339_j61151744360733_2_alg».proof.Proof.Gen.KernelIdeal.Frame
import proofs.«132339_j61151744360733_2_alg».proof.Proof.Recurrence
import proofs.«132339_j61151744360733_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.StateBlocks

open Cert.KernelIdeal Cert.KernelIdeal.Gen Cert.Recurrence
open Idealize.ShloMosaic Idealize.ShloMosaic.TcCoe Idealize.ShloMosaic.ValueIdx Idealize.SL.Sem
open Idealize.ShloMosaic.Pipeline (Dat Cfg Window)

/-! ## The product's dimension numbers: where an output entry and a contracted feature are read -/

theorem lhs0 (i : S32x256.Idx) (q : dot_S32x1024_S1024x256_S32x256_1_0_0_1_n_n.contr.Idx) : (dot_S32x1024_S1024x256_S32x256_1_0_0_1_n_n.lhsIdx i q 0).val = (i 0).val := by
  unfold DotDims.lhsIdx
  rw [dif_neg (show ¬(0 : Fin S32x1024.rank) ∈ dot_S32x1024_S1024x256_S32x256_1_0_0_1_n_n.lhsBatch by decide), dif_pos (show (0 : Fin S32x1024.rank) ∈ dot_S32x1024_S1024x256_S32x256_1_0_0_1_n_n.lhsNonContracting by decide)]
  rfl
theorem lhs1 (i : S32x256.Idx) (q : dot_S32x1024_S1024x256_S32x256_1_0_0_1_n_n.contr.Idx) : (dot_S32x1024_S1024x256_S32x256_1_0_0_1_n_n.lhsIdx i q 1).val = (q ⟨0, by decide⟩).val :=
  dot_S32x1024_S1024x256_S32x256_1_0_0_1_n_n.lhsIdx_val_of_single rfl i q
theorem rhs0 (i : S32x256.Idx) (q : dot_S32x1024_S1024x256_S32x256_1_0_0_1_n_n.contr.Idx) : (dot_S32x1024_S1024x256_S32x256_1_0_0_1_n_n.rhsIdx i q 0).val = (q ⟨0, by decide⟩).val :=
  dot_S32x1024_S1024x256_S32x256_1_0_0_1_n_n.rhsIdx_val_of_single rfl i q
theorem rhs1 (i : S32x256.Idx) (q : dot_S32x1024_S1024x256_S32x256_1_0_0_1_n_n.contr.Idx) : (dot_S32x1024_S1024x256_S32x256_1_0_0_1_n_n.rhsIdx i q 1).val = (i 1).val := by
  unfold DotDims.rhsIdx
  rw [dif_neg (show ¬(1 : Fin S1024x256.rank) ∈ dot_S32x1024_S1024x256_S32x256_1_0_0_1_n_n.rhsBatch by decide), dif_pos (show (1 : Fin S1024x256.rank) ∈ dot_S32x1024_S1024x256_S32x256_1_0_0_1_n_n.rhsNonContracting by decide)]
  rfl

/-! ## The body's arithmetic at an entry of the block -/

/-- The stored state block at (p, q): the decayed old state there plus row p of the x block against column q of the W block. -/
theorem pay_state (x0 : Vec Ideal S32x1024 .f32) (x1 : Vec Ideal S1024x256 .f32) (x2 : Vec Ideal S32x256 .f32) (p : Fin 32) (q : Fin 256) :
    k0_pay1 x0 x1 x2 (ix2 p q) = β * x2 (ix2 p q) + ∑ k : Fin 1024, x0 (ix2 p k) * x1 (ix2 k q) := by
  unfold k0_pay1
  exact congrArg (fun z => β * x2 (ix2 p q) + z)
    (Cert.LibPlainMatmul.matmul_zero_at dot_S32x1024_S1024x256_S32x256_1_0_0_1_n_n none rfl rfl lhs0 lhs1 rhs0 rhs1
      (truncf .bf16 x0 bitsLt_bf16_f32) (truncf .bf16 x1 bitsLt_bf16_f32) p q)

/-- The stored block at (p, q) is the new state of whole arrays X, Wt, U at the array entry i, when the loaded blocks
    are the pieces of those arrays that entry i depends on: row (i 0) of X, column (i 1) of Wt, and U at i. -/
theorem state_point (X : (⟨2, ![32, 1024]⟩ : Shape).Idx → EReal) (Wt : (⟨2, ![1024, 1024]⟩ : Shape).Idx → EReal)
    (U : (⟨2, ![32, 1024]⟩ : Shape).Idx → EReal)
    (x0 : Vec Ideal S32x1024 .f32) (x1 : Vec Ideal S1024x256 .f32) (x2 : Vec Ideal S32x256 .f32)
    (p : Fin 32) (q : Fin 256) (i : S32x1024.Idx)
    (h0 : ∀ k : Fin 1024, x0 (ix2 p k) = X (ix2 (i 0) k))
    (h1 : ∀ k : Fin 1024, x1 (ix2 k q) = Wt (ix2 k (i 1)))
    (h2 : x2 (ix2 p q) = U i) :
    k0_pay1 x0 x1 x2 (ix2 p q) = state X Wt U i := by
  rw [pay_state, h2]
  unfold state
  exact congrArg (fun z => β * U i + z) (Finset.sum_congr rfl fun k _ => by rw [h0, h1])

/-! ## The grid: which block of each array a point holds -/

theorem hz : (![0, 0] : Fin 2 → Nat) = fun _ => 0 := funext fun a => by fin_cases a <;> rfl

/-- The printed index maps over the four points: x is held whole; W, u and both results at column block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

variable {V : (c : Dev nD) → (b : Ref sig .tc) → Buf (Elt Ideal) ((c : Thread nD τ).loc b)}

/-- The x block at any point is x itself. -/
theorem x_block (c : Dev nD) (t : Fin cfg0.N) (y : S32x1024.Idx) : iblk0 V c 0 t y = V c main_arg0 y := by
  show V c main_arg0 (((cfg0.win 0).blk t).view.emb y) = V c main_arg0 y
  refine congrArg _ (funext fun a => Fin.ext ?_)
  obtain ⟨e0, e1, -⟩ := idx_facts t
  match a with
  | ⟨0, _⟩ => show win0_0.index t (0 : Fin 2) * 32 + 1 * (y 0).val = (y 0).val; omega
  | ⟨1, _⟩ => show win0_0.index t (1 : Fin 2) * 1024 + 1 * (y 1).val = (y 1).val; omega

/-- The W block at point t, at (k, q), is W at (k, 256 t + q). -/
theorem w_block (c : Dev nD) (t : Fin cfg0.N) (y : S1024x256.Idx) (i : S1024x1024.Idx)
    (h0 : (i 0).val = (y 0).val) (h1 : (i 1).val = t.val * 256 + (y 1).val) : iblk0 V c 1 t y = V c main_arg1 i := by
  show V c main_arg1 (((cfg0.win 1).blk t).view.emb y) = V c main_arg1 i
  refine congrArg _ (funext fun a => Fin.ext ?_)
  obtain ⟨-, -, e0, e1, -⟩ := idx_facts t
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-- The u block at point t, at (p, q), is u at (p, 256 t + q). -/
theorem u_block (c : Dev nD) (t : Fin cfg0.N) (y : S32x256.Idx) (i : S32x1024.Idx)
    (h0 : (i 0).val = (y 0).val) (h1 : (i 1).val = t.val * 256 + (y 1).val) : iblk0 V c 2 t y = V c main_arg2 i := by
  show V c main_arg2 (((cfg0.win 2).blk t).view.emb y) = V c main_arg2 i
  refine congrArg _ (funext fun a => Fin.ext ?_)
  obtain ⟨-, -, -, -, e0, e1, -⟩ := idx_facts t
  match a with
  | ⟨0, _⟩ => show win0_2.index t (0 : Fin 2) * 32 + 1 * (y 0).val = (i 0).val; omega
  | ⟨1, _⟩ => show win0_2.index t (1 : Fin 2) * 256 + 1 * (y 1).val = (i 1).val; omega

/-! ## What a point writes back -/

/-- Where the result block's entry (p, q) at point t sits in the result array: row p, column 256 t + q. -/
theorem out_at (t : Fin cfg0.N) (p : Fin 32) (q : Fin 256) :
    ((((cfg0.win 4).blk t).view.emb (ix2 p q)) 0).val = p.val
    ∧ ((((cfg0.win 4).blk t).view.emb (ix2 p q)) 1).val = t.val * 256 + q.val := by
  obtain ⟨-, -, -, -, -, -, -, -, e0, e1⟩ := idx_facts t
  constructor
  · show win0_4.index t (0 : Fin 2) * 32 + 1 * p.val = p.val; omega
  · show win0_4.index t (1 : Fin 2) * 256 + 1 * q.val = t.val * 256 + q.val; omega

/-- The two results' windows have one index map, so one placement. -/
theorem out_at' (t : Fin cfg0.N) (p : Fin 32) (q : Fin 256) :
    ((((cfg0.win 3).blk t).view.emb (ix2 p q)) 0).val = p.val
    ∧ ((((cfg0.win 3).blk t).view.emb (ix2 p q)) 1).val = t.val * 256 + q.val := by
  obtain ⟨-, -, -, -, -, -, e0, e1, -⟩ := idx_facts t
  constructor
  · show win0_3.index t (0 : Fin 2) * 32 + 1 * p.val = p.val; omega
  · show win0_3.index t (1 : Fin 2) * 256 + 1 * q.val = t.val * 256 + q.val; omega

/-- The state block of point t, entry by entry, is the new state of the entry arrays where the block sits. -/
theorem block_state (c : Dev nD) (t : Fin cfg0.N) (p : Fin 32) (q : Fin 256) (i : S32x1024.Idx)
    (hi0 : (i 0).val = p.val) (hi1 : (i 1).val = t.val * 256 + q.val) :
    k0_pay1 (iblk0 V c 0 t) (iblk0 V c 1 t) (iblk0 V c 2 t) (ix2 p q)
      = state (V c main_arg0) (V c main_arg1) (V c main_arg2) i := by
  refine state_point (V c main_arg0) (V c main_arg1) (V c main_arg2) (iblk0 V c 0 t) (iblk0 V c 1 t) (iblk0 V c 2 t) p q i ?_ ?_ ?_
  · intro k
    rw [x_block c t (ix2 p k)]
    exact congrArg (V c main_arg0) (funext fun a => Fin.ext (by
      match a with
      | ⟨0, _⟩ => exact hi0.symm
      | ⟨1, _⟩ => rfl))
  · intro k
    exact w_block c t (ix2 k q) (ix2 k (i 1)) rfl hi1
  · exact u_block c t (ix2 p q) i hi0 hi1

/-- WHAT POINT t WRITES BACK to the state result is block t of the new state of the entry arrays. -/
theorem flushed_state (c : Dev nD) (t : Fin cfg0.N) :
    (dat0 V c).flushed 4 t = ((cfg0.win 4).blk t).view.read (Elt Ideal) (state (V c main_arg0) (V c main_arg1) (V c main_arg2)) := by
  show (cfg0.win 4).cut (grid0.coords t) ((dat0 V c).after 4 t) = _
  rw [after0_4]
  unfold out0_4
  rw [View.canon_unit_zero hz]
  simp only [View.ld_unit_zero (S := S32x1024) hz, View.ld_unit_zero (S := S1024x256) hz, View.ld_unit_zero (S := S32x256) hz]
  funext j
  obtain ⟨p, q, rfl⟩ : ∃ (p : Fin 32) (q : Fin 256), j = ix2 p q := ⟨j 0, j 1, eq_ix2 j⟩
  obtain ⟨a0, a1⟩ := out_at t p q
  exact block_state c t p q _ a0 a1

/-- WHAT POINT t WRITES BACK to the output result is block t of the output of the entry arrays. -/
theorem flushed_output (c : Dev nD) (t : Fin cfg0.N) :
    (dat0 V c).flushed 3 t = ((cfg0.win 3).blk t).view.read (Elt Ideal) (output (V c main_arg0) (V c main_arg1) (V c main_arg2)) := by
  show (cfg0.win 3).cut (grid0.coords t) ((dat0 V c).after 3 t) = _
  rw [after0_3]
  unfold out0_3
  rw [View.canon_unit_zero hz]
  simp only [View.ld_unit_zero (S := S32x1024) hz, View.ld_unit_zero (S := S1024x256) hz, View.ld_unit_zero (S := S32x256) hz]
  funext j
  obtain ⟨p, q, rfl⟩ : ∃ (p : Fin 32) (q : Fin 256), j = ix2 p q := ⟨j 0, j 1, eq_ix2 j⟩
  obtain ⟨a0, a1⟩ := out_at' t p q
  exact congrArg Ideal.tanh (block_state c t p q _ a0 a1)

/-! ## The four blocks tile the 1024 columns -/

/-- An entry of the state result is in point t's block iff each coordinate is in the block's range on its axis. -/
theorem mem_state (t : Fin cfg0.N) (i : S32x1024.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v0_1).slice (win0_4.rect t)).set ↔ _
  rw [View.set_slice_whole, Rect.mem_set_unit]
  exact Iff.rfl

/-- The same for the output result. -/
theorem mem_output (t : Fin cfg0.N) (i : S32x1024.Idx) :
    i ∈ ((cfg0.win 3).blk t).view.set ↔ ∀ a : Fin 2, win0_3.index t a * S32x256.size a ≤ (i a).val ∧ (i a).val < win0_3.index t a * S32x256.size a + S32x256.size a := by
  show i ∈ ((View.whole main_v0_0).slice (win0_3.rect t)).set ↔ _
  rw [View.set_slice_whole, Rect.mem_set_unit]
  exact Iff.rfl

/-- The point whose block holds column j: j / 256. -/
def pointOf (i : S32x1024.Idx) : Fin cfg0.N := ⟨(i 1).val / 256, by
  have h : (i 1).val < 1024 := (i 1).isLt
  have hN : grid0.N = 4 := N_0
  show (i 1).val / 256 < grid0.N
  omega⟩

theorem cover_state (i : S32x1024.Idx) : ∃ t : Fin cfg0.N, (cfg0.win 4).flush t = true ∧ i ∈ ((cfg0.win 4).blk t).view.set := by
  refine ⟨pointOf i, flush0_4 _, ?_⟩
  rw [mem_state]
  obtain ⟨-, -, -, -, -, -, -, -, e0, e1⟩ := idx_facts (pointOf i)
  have h0 : (i 0).val < 32 := (i 0).isLt
  have h1 : (i 1).val < 1024 := (i 1).isLt
  have hp : (pointOf i).val = (i 1).val / 256 := rfl
  intro a
  match a with
  | ⟨0, _⟩ => show win0_4.index (pointOf i) (0 : Fin 2) * 32 ≤ (i 0).val ∧ (i 0).val < win0_4.index (pointOf i) (0 : Fin 2) * 32 + 32; omega
  | ⟨1, _⟩ => show win0_4.index (pointOf i) (1 : Fin 2) * 256 ≤ (i 1).val ∧ (i 1).val < win0_4.index (pointOf i) (1 : Fin 2) * 256 + 256; omega

theorem cover_output (i : S32x1024.Idx) : ∃ t : Fin cfg0.N, (cfg0.win 3).flush t = true ∧ i ∈ ((cfg0.win 3).blk t).view.set := by
  refine ⟨pointOf i, flush0_3 _, ?_⟩
  rw [mem_output]
  obtain ⟨-, -, -, -, -, -, e0, e1, -⟩ := idx_facts (pointOf i)
  have h0 : (i 0).val < 32 := (i 0).isLt
  have h1 : (i 1).val < 1024 := (i 1).isLt
  have hp : (pointOf i).val = (i 1).val / 256 := rfl
  intro a
  match a with
  | ⟨0, _⟩ => show win0_3.index (pointOf i) (0 : Fin 2) * 32 ≤ (i 0).val ∧ (i 0).val < win0_3.index (pointOf i) (0 : Fin 2) * 32 + 32; omega
  | ⟨1, _⟩ => show win0_3.index (pointOf i) (1 : Fin 2) * 256 ≤ (i 1).val ∧ (i 1).val < win0_3.index (pointOf i) (1 : Fin 2) * 256 + 256; omega

/-! ## The two result arrays after the region -/

/-- After the region the state result holds the new state of the arrays the region was entered with. -/
theorem final_state (c : Dev nD) :
    (dat0 V c).arrAt 4 cfg0.N = state (V c main_arg0) (V c main_arg1) (V c main_arg2) :=
  (dat0 V c).arrAt_eq_of_cover 4 (state (V c main_arg0) (V c main_arg1) (V c main_arg2)) (fun t _ => flushed_state c t) cover_state

/-- After the region the output result holds the output of the arrays the region was entered with. -/
theorem final_output (c : Dev nD) :
    (dat0 V c).arrAt 3 cfg0.N = output (V c main_arg0) (V c main_arg1) (V c main_arg2) :=
  (dat0 V c).arrAt_eq_of_cover 3 (output (V c main_arg0) (V c main_arg1) (V c main_arg2)) (fun t _ => flushed_output c t) cover_output

end Cert.KernelIdeal.StateBlocks

end
-- ==== Proof.LibTrailingUnit.lean ====
/-
  A trailing unit axis on a rank-2 array, read at an index given by coordinates: the two layout operations of a
  reduction over the LAST axis that keeps the axis (a `sum(..., axis=-1, keepdims=True)` and the broadcast that
  spreads its result back over that axis).

  • `shapeCast_ab_ab1_apply`: an `[a, b]` array cast to `[a, b, 1]` reads, at `(p, q, u)`, the operand at `(p, q)`:
    the two indices have the same row-major position, since the new axis has one coordinate, `0`.
  • `broadcastTo_ab1_abc_apply`: an `[a, b, 1]` array broadcast to `[a, b, c]` reads, at `(p, q, r)`, the operand at
    `(p, q, 0)`: the first two axes are kept (or, where an extent is one, have only the coordinate `0`) and the unit
    axis is read at its one coordinate.
  The extents are variables, so the lemmas apply at any sizes by unification.
-/
import Idealize.ShloMosaic.Lib.Pipeline.Value
import Idealize.ShloMosaic.Lib.ValueIdx

namespace Cert.LibTrailingUnit

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.LibTrailingUnit
-- ==== Proof.TraceBlocks.lean ====
/-
  The second kernel region updates the eligibility trace, a block of 128 input features by 256 hidden units at a time.

  Its grid has 8 × 4 points. At the point of block row I and block column J the body reads the [32, 128, 1] piece
  of the column-form input (features [128 I, 128 I + 128)) and the [32, 128, 256] piece of the old trace (the same
  features, hidden units [256 J, 256 J + 256)), spreads the input piece along the hidden axis — at (b, i, j) it reads
  the piece at (b, i, 0); the two same-shape casts before it change nothing —, adds it to β times the trace piece and
  writes the sum back to the same block of the result. So what a point writes back is its block of ONE whole-array
  function of the arrays the region was entered with, the 32 blocks tile the result, and after the region the result
  holds that function. Stated at ANY entry contents V.
-/
import proofs.«132339_j61151744360733_2_alg».proof.Proof.Gen.KernelIdeal.Frame
import proofs.«132339_j61151744360733_2_alg».proof.Proof.Recurrence
import proofs.«132339_j61151744360733_2_alg».proof.Proof.LibTrailingUnit
import Idealize.ShloMosaic.Lib.Pipeline.Value
import Idealize.ShloMosaic.Lib.ValueIdx

set_option maxRecDepth 16384

noncomputable section

namespace Cert.KernelIdeal.TraceBlocks

open Cert.KernelIdeal Cert.KernelIdeal.Gen Cert.Recurrence
open Idealize.ShloMosaic Idealize.ShloMosaic.TcCoe Idealize.ShloMosaic.ValueIdx Idealize.SL.Sem
open Idealize.ShloMosaic.Pipeline (Dat Cfg Window)

/-- The new trace over an input held in column form [32, 1024, 1]: the old trace decayed, plus the input entry of
    its batch row and input feature, whatever the hidden unit. -/
def traceOfColumn (x3 : (⟨3, ![32, 1024, 1]⟩ : Shape).Idx → EReal) (E : (⟨3, ![32, 1024, 1024]⟩ : Shape).Idx → EReal) :
    (⟨3, ![32, 1024, 1024]⟩ : Shape).Idx → EReal :=
  fun i => β * E i + x3 (ix3 (i 0) (i 1) (0 : Fin 1))

/-! ## The body's arithmetic at an entry of the block -/

/-- The input piece spread along the hidden axis reads, at (p, q, r), the piece at (p, q, 0). -/
theorem spread_at (x0 : Vec Ideal S32x128x1 .f32) (p : Fin 32) (q : Fin 128) (r : Fin 256) :
    broadcastTo S32x128x256 (shapeCast S32x128x1 (shapeCast S32x128x1 x0 shapeCasts_S32x128x1_S32x128x1) shapeCasts_S32x128x1_S32x128x1)
      broadcasts_S32x128x1_S32x128x256 (ix3 p q r) = x0 (ix3 p q (0 : Fin 1)) := by
  rw [shapeCast_self, shapeCast_self]
  exact Cert.LibTrailingUnit.broadcastTo_ab1_abc_apply x0 broadcasts_S32x128x1_S32x128x256 p q r

/-- The stored trace block at (p, q, r): the decayed old trace there plus the input piece at (p, q, 0). -/
theorem pay_trace (x0 : Vec Ideal S32x128x1 .f32) (x1 : Vec Ideal S32x128x256 .f32) (p : Fin 32) (q : Fin 128) (r : Fin 256) :
    k1_pay1 x0 x1 (ix3 p q r) = β * x1 (ix3 p q r) + x0 (ix3 p q (0 : Fin 1)) := by
  unfold k1_pay1
  exact congrArg (fun z => β * x1 (ix3 p q r) + z) (spread_at x0 p q r)

/-- The stored block at (p, q, r) is the new trace of whole arrays X3, E at the array entry i, when the loaded pieces
    are the parts of those arrays that entry i depends on. -/
theorem trace_point (X3 : (⟨3, ![32, 1024, 1]⟩ : Shape).Idx → EReal) (E : (⟨3, ![32, 1024, 1024]⟩ : Shape).Idx → EReal)
    (x0 : Vec Ideal S32x128x1 .f32) (x1 : Vec Ideal S32x128x256 .f32)
    (p : Fin 32) (q : Fin 128) (r : Fin 256) (i : S32x1024x1024.Idx)
    (h0 : x0 (ix3 p q (0 : Fin 1)) = X3 (ix3 (i 0) (i 1) (0 : Fin 1)))
    (h1 : x1 (ix3 p q r) = E i) :
    k1_pay1 x0 x1 (ix3 p q r) = traceOfColumn X3 E i := by
  rw [pay_trace, h0, h1]
  rfl

/-! ## The grid: which block of each array a point holds -/

theorem hz : (![0, 0, 0] : Fin 3 → Nat) = fun _ => 0 := funext fun a => by fin_cases a <;> rfl

/-- The printed index maps over the 32 points: the input piece moves with the result's block row, the old trace with
    the result's block row and column, and the result's block indices stay in their ranges. -/
theorem idx_facts : ∀ t : Fin cfg1.N,
    win1_0.index t (0 : Fin 3) = 0 ∧ win1_0.index t (1 : Fin 3) = win1_2.index t (1 : Fin 3) ∧ win1_0.index t (2 : Fin 3) = 0
    ∧ win1_1.index t (0 : Fin 3) = 0 ∧ win1_1.index t (1 : Fin 3) = win1_2.index t (1 : Fin 3) ∧ win1_1.index t (2 : Fin 3) = win1_2.index t (2 : Fin 3)
    ∧ win1_2.index t (0 : Fin 3) = 0 ∧ win1_2.index t (1 : Fin 3) ≤ 7 ∧ win1_2.index t (2 : Fin 3) ≤ 3 :=
  (by decide +kernel : ∀ t : Fin grid1.N, _)

/-- Every block of the result is SOME point's. -/
theorem idx_onto : ∀ (a : Fin 8) (b : Fin 4), ∃ t : Fin cfg1.N, win1_2.index t (1 : Fin 3) = a.val ∧ win1_2.index t (2 : Fin 3) = b.val :=
  (by decide +kernel : ∀ (a : Fin 8) (b : Fin 4), ∃ t : Fin grid1.N, win1_2.index t (1 : Fin 3) = a.val ∧ win1_2.index t (2 : Fin 3) = b.val)

variable {V : (c : Dev nD) → (b : Ref sig .tc) → Buf (Elt Ideal) ((c : Thread nD τ).loc b)}

/-- The input piece at point t, at (p, q, 0), is the column-form input at (p, 128 I + q, 0). -/
theorem x_block (c : Dev nD) (t : Fin cfg1.N) (y : S32x128x1.Idx) (i : S32x1024x1.Idx)
    (h0 : (i 0).val = (y 0).val) (h1 : (i 1).val = win1_2.index t (1 : Fin 3) * 128 + (y 1).val) (h2 : (i 2).val = (y 2).val) :
    iblk1 V c 0 t y = V c main_v1 i := by
  show V c main_v1 (((cfg1.win 0).blk t).view.emb y) = V c main_v1 i
  refine congrArg _ (funext fun a => Fin.ext ?_)
  obtain ⟨e0, e1, e2, -⟩ := idx_facts t
  match a with
  | ⟨0, _⟩ => show win1_0.index t (0 : Fin 3) * 32 + 1 * (y 0).val = (i 0).val; omega
  | ⟨1, _⟩ => show win1_0.index t (1 : Fin 3) * 128 + 1 * (y 1).val = (i 1).val; omega
  | ⟨2, _⟩ => show win1_0.index t (2 : Fin 3) * 1 + 1 * (y 2).val = (i 2).val; omega

/-- The old-trace piece at point t, at (p, q, r), is the old trace at (p, 128 I + q, 256 J + r). -/
theorem e_block (c : Dev nD) (t : Fin cfg1.N) (y : S32x128x256.Idx) (i : S32x1024x1024.Idx)
    (h0 : (i 0).val = (y 0).val) (h1 : (i 1).val = win1_2.index t (1 : Fin 3) * 128 + (y 1).val)
    (h2 : (i 2).val = win1_2.index t (2 : Fin 3) * 256 + (y 2).val) :
    iblk1 V c 1 t y = V c main_arg3 i := by
  show V c main_arg3 (((cfg1.win 1).blk t).view.emb y) = V c main_arg3 i
  refine congrArg _ (funext fun a => Fin.ext ?_)
  obtain ⟨-, -, -, e0, e1, e2, -⟩ := idx_facts t
  match a with
  | ⟨0, _⟩ => show win1_1.index t (0 : Fin 3) * 32 + 1 * (y 0).val = (i 0).val; omega
  | ⟨1, _⟩ => show win1_1.index t (1 : Fin 3) * 128 + 1 * (y 1).val = (i 1).val; omega
  | ⟨2, _⟩ => show win1_1.index t (2 : Fin 3) * 256 + 1 * (y 2).val = (i 2).val; omega

/-! ## What a point writes back -/

/-- Where the result block's entry (p, q, r) at point t sits in the result array. -/
theorem out_at (t : Fin cfg1.N) (p : Fin 32) (q : Fin 128) (r : Fin 256) :
    ((((cfg1.win 2).blk t).view.emb (ix3 p q r)) 0).val = p.val
    ∧ ((((cfg1.win 2).blk t).view.emb (ix3 p q r)) 1).val = win1_2.index t (1 : Fin 3) * 128 + q.val
    ∧ ((((cfg1.win 2).blk t).view.emb (ix3 p q r)) 2).val = win1_2.index t (2 : Fin 3) * 256 + r.val := by
  obtain ⟨-, -, -, -, -, -, e0, -⟩ := idx_facts t
  refine ⟨?_, ?_, ?_⟩
  · show win1_2.index t (0 : Fin 3) * 32 + 1 * p.val = p.val; omega
  · show win1_2.index t (1 : Fin 3) * 128 + 1 * q.val = win1_2.index t (1 : Fin 3) * 128 + q.val; omega
  · show win1_2.index t (2 : Fin 3) * 256 + 1 * r.val = win1_2.index t (2 : Fin 3) * 256 + r.val; omega

/-- The trace block of point t, entry by entry, is the new trace of the entry arrays where the block sits. -/
theorem block_trace (c : Dev nD) (t : Fin cfg1.N) (p : Fin 32) (q : Fin 128) (r : Fin 256) (i : S32x1024x1024.Idx)
    (hi0 : (i 0).val = p.val) (hi1 : (i 1).val = win1_2.index t (1 : Fin 3) * 128 + q.val)
    (hi2 : (i 2).val = win1_2.index t (2 : Fin 3) * 256 + r.val) :
    k1_pay1 (iblk1 V c 0 t) (iblk1 V c 1 t) (ix3 p q r) = traceOfColumn (V c main_v1) (V c main_arg3) i := by
  refine trace_point (V c main_v1) (V c main_arg3) (iblk1 V c 0 t) (iblk1 V c 1 t) p q r i ?_ ?_
  · exact x_block c t (ix3 p q (0 : Fin 1)) (ix3 (i 0) (i 1) (0 : Fin 1)) hi0 hi1 rfl
  · exact e_block c t (ix3 p q r) i hi0 hi1 hi2

/-- WHAT POINT t WRITES BACK is block t of the new trace of the entry arrays. -/
theorem flushed_trace (c : Dev nD) (t : Fin cfg1.N) :
    (dat1 V c).flushed 2 t = ((cfg1.win 2).blk t).view.read (Elt Ideal) (traceOfColumn (V c main_v1) (V c main_arg3)) := by
  show (cfg1.win 2).cut (grid1.coords t) ((dat1 V c).after 2 t) = _
  rw [after1_2]
  unfold out1_2
  rw [View.canon_unit_zero hz]
  simp only [View.ld_unit_zero (S := S32x128x1) hz, View.ld_unit_zero (S := S32x128x256) hz]
  funext j
  obtain ⟨p, q, r, rfl⟩ : ∃ (p : Fin 32) (q : Fin 128) (r : Fin 256), j = ix3 p q r := ⟨j 0, j 1, j 2, eq_ix3 j⟩
  obtain ⟨a0, a1, a2⟩ := out_at t p q r
  exact block_trace c t p q r _ a0 a1 a2

/-! ## The 32 blocks tile the result -/

/-- An entry of the result is in point t's block iff each coordinate is in the block's range on its axis. -/
theorem mem_trace (t : Fin cfg1.N) (i : S32x1024x1024.Idx) :
    i ∈ ((cfg1.win 2).blk t).view.set ↔ ∀ a : Fin 3, win1_2.index t a * S32x128x256.size a ≤ (i a).val ∧ (i a).val < win1_2.index t a * S32x128x256.size a + S32x128x256.size a := by
  show i ∈ ((View.whole main_v2).slice (win1_2.rect t)).set ↔ _
  rw [View.set_slice_whole, Rect.mem_set_unit]
  exact Iff.rfl

theorem cover_trace (i : S32x1024x1024.Idx) : ∃ t : Fin cfg1.N, (cfg1.win 2).flush t = true ∧ i ∈ ((cfg1.win 2).blk t).view.set := by
  have h0 : (i 0).val < 32 := (i 0).isLt
  have h1 : (i 1).val < 1024 := (i 1).isLt
  have h2 : (i 2).val < 1024 := (i 2).isLt
  obtain ⟨t, q1, q2⟩ := idx_onto ⟨(i 1).val / 128, by omega⟩ ⟨(i 2).val / 256, by omega⟩
  have q1' : win1_2.index t (1 : Fin 3) = (i 1).val / 128 := q1
  have q2' : win1_2.index t (2 : Fin 3) = (i 2).val / 256 := q2
  obtain ⟨-, -, -, -, -, -, e0, -⟩ := idx_facts t
  refine ⟨t, flush1_2 t, ?_⟩
  rw [mem_trace]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 128 ≤ (i 1).val ∧ (i 1).val < win1_2.index t (1 : Fin 3) * 128 + 128; omega
  | ⟨2, _⟩ => show win1_2.index t (2 : Fin 3) * 256 ≤ (i 2).val ∧ (i 2).val < win1_2.index t (2 : Fin 3) * 256 + 256; omega

/-! ## The result array after the region -/

/-- After the region the result holds the new trace of the arrays the region was entered with. -/
theorem final_trace (c : Dev nD) :
    (dat1 V c).arrAt 2 cfg1.N = traceOfColumn (V c main_v1) (V c main_arg3) :=
  (dat1 V c).arrAt_eq_of_cover 2 (traceOfColumn (V c main_v1) (V c main_arg3)) (fun t _ => flushed_trace c t) cover_trace

end Cert.KernelIdeal.TraceBlocks

end
-- ==== Proof.Results.lean ====
/-
  The idealized kernel's three results as functions of the launch memory.

  The contents at the last boundary are a fold through @main: the first region, two host operations, the second
  region. Walking it back from each result:
    • the output and the new state are arrays of the FIRST region, which the host operations and the second region
      do not write; after that region they hold the output and the new state of the arrays it was entered with — the
      launch memory itself;
    • the new trace is the array of the SECOND region; after it, it holds the new trace of that region's entry arrays:
      the old trace, which nothing before has written, and the column-form input the host made by giving x a
      trailing unit axis, whose entry (b, i, 0) is x[b, i].
  With the run that forgets nothing, this is the kernel's side of the value claim.
-/
import proofs.«132339_j61151744360733_2_alg».proof.Proof.WholeRun
import proofs.«132339_j61151744360733_2_alg».proof.Proof.StateBlocks
import proofs.«132339_j61151744360733_2_alg».proof.Proof.TraceBlocks
import Idealize.ShloMosaic.Lib.StableHlo.Run
import Idealize.ShloMosaic.Lib.Pipeline.Value

set_option maxRecDepth 16384

noncomputable section

namespace Cert.KernelIdeal.Results

open Cert.KernelIdeal Cert.KernelIdeal.Gen Cert.Recurrence
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The host operations between the regions -/

/-- They do not write the output. -/
theorem output_kept (c : Dev nD) : W2 m ρ c (Proc.devRef .tc main_v0_0) = W1 m ρ c (Proc.devRef .tc main_v0_0) := by
  show StableHlo.after hostOps1 (W1 m ρ c) (Proc.devRef .tc main_v0_0) = _
  after_results

/-- They do not write the new state. -/
theorem state_kept (c : Dev nD) : W2 m ρ c (Proc.devRef .tc main_v0_1) = W1 m ρ c (Proc.devRef .tc main_v0_1) := by
  show StableHlo.after hostOps1 (W1 m ρ c) (Proc.devRef .tc main_v0_1) = _
  after_results

/-- The column-form input they make is x, as launched, with a trailing unit axis. -/
theorem column_eq (c : Dev nD) : W2 m ρ c (Proc.devRef .tc main_v1)
    = broadcastInDim S32x1024x1 ![0, 1] bcast_S32x1024_S32x1024x1_0_1 (m ((c : Thread nD τ).loc main_arg0)) := by
  show StableHlo.after hostOps1 (W1 m ρ c) (Proc.devRef .tc main_v1) = _
  after_results
  exact congrArg _ ((W1_arr m ρ c 0).trans (((dat0 (V0 m ρ) c).arrAt_in 0 rfl _).trans (A_eq0 (V0 m ρ) c 0)))

/-- The old trace the second region is entered with is the launched one. -/
theorem old_trace_eq (c : Dev nD) : W2 m ρ c (Proc.devRef .tc main_arg3) = m ((c : Thread nD τ).loc main_arg3) :=
  ((W3_arr m ρ c 1).trans (((dat1 (V2 m ρ) c).arrAt_in 1 rfl _).trans (A_eq1 (V2 m ρ) c 1))).symm.trans (W3_main_arg3 m ρ c)

/-- x with a trailing unit axis reads, at (a, b, 0), x at (a, b). -/
theorem column_at (x : S32x1024.Idx → EReal) (a : Fin 32) (b : Fin 1024) :
    broadcastInDim S32x1024x1 ![0, 1] bcast_S32x1024_S32x1024x1_0_1 x (ix3 a b (0 : Fin 1)) = x (ix2 a b) :=
  broadcastInDim_apply _ bcast_S32x1024_S32x1024x1_0_1 x (ix3 a b (0 : Fin 1)) (ix2 a b) (fun d => match d with
    | ⟨0, _⟩ => by show a.val = if (32 : Nat) = 1 then 0 else a.val; rw [if_neg (by decide)]
    | ⟨1, _⟩ => by show b.val = if (1024 : Nat) = 1 then 0 else b.val; rw [if_neg (by decide)])

/-- So the new trace over that column form is the new trace over x. -/
theorem trace_of_column (x : S32x1024.Idx → EReal) (E : S32x1024x1024.Idx → EReal) :
    TraceBlocks.traceOfColumn (broadcastInDim S32x1024x1 ![0, 1] bcast_S32x1024_S32x1024x1_0_1 x) E = trace x E := by
  funext i
  exact congrArg (fun z => β * E i + z) (column_at x (i 0) (i 1))

/-! ## The last boundary's contents at the three results -/

theorem output_at (c : Dev nD) : W3 m ρ c (Proc.devRef .tc main_v0_0)
    = output (m ((c : Thread nD τ).loc main_arg0)) (m ((c : Thread nD τ).loc main_arg1)) (m ((c : Thread nD τ).loc main_arg2)) :=
  calc W3 m ρ c (Proc.devRef .tc main_v0_0)
    _ = W2 m ρ c (Proc.devRef .tc main_v0_0) := W3_of_ne m ρ c main_v0_0 (by decide)
    _ = W1 m ρ c (Proc.devRef .tc main_v0_0) := output_kept m ρ c
    _ = (dat0 (V0 m ρ) c).arrAt 3 cfg0.N := W1_arr m ρ c 3
    _ = _ := StateBlocks.final_output (V := V0 m ρ) c

theorem state_at (c : Dev nD) : W3 m ρ c (Proc.devRef .tc main_v0_1)
    = state (m ((c : Thread nD τ).loc main_arg0)) (m ((c : Thread nD τ).loc main_arg1)) (m ((c : Thread nD τ).loc main_arg2)) :=
  calc W3 m ρ c (Proc.devRef .tc main_v0_1)
    _ = W2 m ρ c (Proc.devRef .tc main_v0_1) := W3_of_ne m ρ c main_v0_1 (by decide)
    _ = W1 m ρ c (Proc.devRef .tc main_v0_1) := state_kept m ρ c
    _ = (dat0 (V0 m ρ) c).arrAt 4 cfg0.N := W1_arr m ρ c 4
    _ = _ := StateBlocks.final_state (V := V0 m ρ) c

theorem trace_at (c : Dev nD) : W3 m ρ c (Proc.devRef .tc main_v2)
    = trace (m ((c : Thread nD τ).loc main_arg0)) (m ((c : Thread nD τ).loc main_arg3)) :=
  calc W3 m ρ c (Proc.devRef .tc main_v2)
    _ = (dat1 (V2 m ρ) c).arrAt 2 cfg1.N := W3_arr m ρ c 2
    _ = TraceBlocks.traceOfColumn (V2 m ρ c main_v1) (V2 m ρ c main_arg3) := TraceBlocks.final_trace (V := V2 m ρ) c
    _ = TraceBlocks.traceOfColumn (broadcastInDim S32x1024x1 ![0, 1] bcast_S32x1024_S32x1024x1_0_1 (m ((c : Thread nD τ).loc main_arg0)))
          (m ((c : Thread nD τ).loc main_arg3)) := by
        rw [show V2 m ρ c main_v1 = _ from column_eq m ρ c, show V2 m ρ c main_arg3 = _ from old_trace_eq m ρ c]
    _ = _ := trace_of_column _ _

/-! ## The run, read -/

/-- Every weakly fair execution of the idealized kernel terminates with the output, the new state and the new trace
    of the launched arrays in its three results, and the arguments as launched. -/
theorem run : θ_run defs (onTc (τ := τ) (main (F := Ideal))) ⟨m, fun _ => 0, ρ⟩ (fun r => ∀ c : Dev nD,
      r.2.mem ((c.tc : Thread nD τ).loc main_v0_0)
        = output (m ((c.tc : Thread nD τ).loc main_arg0)) (m ((c.tc : Thread nD τ).loc main_arg1)) (m ((c.tc : Thread nD τ).loc main_arg2))
      ∧ r.2.mem ((c.tc : Thread nD τ).loc main_v0_1)
        = state (m ((c.tc : Thread nD τ).loc main_arg0)) (m ((c.tc : Thread nD τ).loc main_arg1)) (m ((c.tc : Thread nD τ).loc main_arg2))
      ∧ r.2.mem ((c.tc : Thread nD τ).loc main_v2)
        = trace (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v0_0 (by decide))).trans (output_at m ρ c),
       (h c _ (mem_uc main_v0_1 (by decide))).trans (state_at m ρ c),
       (h c _ (mem_uc main_v2 (by decide))).trans (trace_at m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)
    (Whole.run m ρ)

end Cert.KernelIdeal.Results

end
-- ==== Proof.lean ====
/-
  One step of a recurrent cell with an eligibility trace, computed by two tiled kernels, against its plain
  array-language reference: the two compute the same three arrays on the extended reals.

  With β the single-precision word nearest 0.9 at its exact value, both programs compute, for a batch row b, input
  features i and k and a hidden unit j (Proof/Recurrence.lean):
      u'[b, j] = β · u[b, j] + Σ_k x[b, k] · W[k, j],     s[b, j] = tanh u'[b, j],     E'[b, i, j] = β · E[b, i, j] + x[b, i].
  The reference does so in twelve whole-array operations (Proof/ReferenceReads.lean reads them at an index). The kernel's
  first region computes u' and s a block of 256 hidden units at a time, its product accumulated into zero and its
  operands rounded on the way in, which on the extended reals is the same sum of products
  (Proof/StateBlocks.lean); its second region computes E' a block of 128 features by 256 hidden units at a time from
  the old trace and x held with a trailing unit axis (Proof/TraceBlocks.lean); the blocks tile the results, and the
  contents at the boundaries between regions walk back to the launch memory (Proof/WholeRun.lean, Proof/Results.lean).
  No law joining the two sides needs the inputs finite: both sides are the same sums, products and hyperbolic
  tangent in the same order, so the precondition is never opened. The idealization pass rewrote nothing, so that
  claim is trivial.
-/
import proofs.«132339_j61151744360733_2_alg».proof.Defs
import proofs.«132339_j61151744360733_2_alg».proof.Proof.Gen.Kernel
import proofs.«132339_j61151744360733_2_alg».proof.Proof.Gen.Kernel.Skeleton
import proofs.«132339_j61151744360733_2_alg».proof.Proof.Gen.Kernel.Launch
import proofs.«132339_j61151744360733_2_alg».proof.Proof.Gen.Kernel.Points
import proofs.«132339_j61151744360733_2_alg».proof.Proof.Gen.Kernel.Frame
import proofs.«132339_j61151744360733_2_alg».proof.Proof.Gen.KernelIdeal
import proofs.«132339_j61151744360733_2_alg».proof.Proof.Gen.KernelIdeal.Skeleton
import proofs.«132339_j61151744360733_2_alg».proof.Proof.Gen.KernelIdeal.Launch
import proofs.«132339_j61151744360733_2_alg».proof.Proof.Gen.KernelIdeal.Points
import proofs.«132339_j61151744360733_2_alg».proof.Proof.Gen.KernelIdeal.Frame
import proofs.«132339_j61151744360733_2_alg».proof.Proof.Gen.ReferenceIdeal
import proofs.«132339_j61151744360733_2_alg».proof.Proof.Gen.ReferenceIdeal.Run
import proofs.«132339_j61151744360733_2_alg».proof.Proof.Gen.ReferenceIdeal.Read
import proofs.«132339_j61151744360733_2_alg».proof.Proof.Gen.Pre_finite_inputs
import proofs.«132339_j61151744360733_2_alg».proof.Proof.Recurrence
import proofs.«132339_j61151744360733_2_alg».proof.Proof.ReferenceReads
import proofs.«132339_j61151744360733_2_alg».proof.Proof.Results
import Idealize.ShloMosaic.Adequacy
import Idealize.ShloMosaic.Init

noncomputable section

namespace Cert.Proof

open Idealize.ShloMosaic Idealize.SL.Sem Cert.Recurrence

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization pass rewrote no operation. -/
theorem preserves : Cert.preserves_Kernel_KernelIdeal := trivial

/-- From memories that agree on x, W, u and E both programs end with the output, the new state and the new trace of
    those arrays in their three results: the kernel by its run read block by block, the reference by its run read
    operation by operation. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h4, h3, h9, hargs⟩ := h c
  obtain ⟨a0, a1, a2, a3⟩ := hagree c
  refine ⟨h4.trans ?_, h3.trans ?_, h9.trans ?_, hargs⟩
  · rw [a0, a1, a2]
    exact (Cert.ReferenceIdeal.Read.val_main_v4_eq _ _ _).trans (Cert.ReferenceIdeal.Reads.output_eq _ _ _)
  · rw [a0, a1, a2]
    exact (Cert.ReferenceIdeal.Read.val_main_v3_eq _ _ _).trans (Cert.ReferenceIdeal.Reads.state_eq _ _ _)
  · rw [a0, a3]
    exact (Cert.ReferenceIdeal.Read.val_main_v9_eq _ _).trans (Cert.ReferenceIdeal.Reads.trace_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
